-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000x1 : Shape := ⟨2, ![50000, 1]⟩
abbrev S128x128 : Shape := ⟨2, ![128, 128]⟩
abbrev S128 : Shape := ⟨1, ![128]⟩
abbrev S8x16x1 : Shape := ⟨3, ![8, 16, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x16x1 : S_.BroadcastsInDim S8x16x1 (![] : Fin 0 → Fin S8x16x1.rank)
  reducesTo_S8x16x1_S_d0_1_2 : S8x16x1.ReducesTo [0, 1, 2] S_

variable [Facts]

def fn_part2 {F : FTy → Type} [FloatOps F] (main_arg11 : FVec F S128x128 .f32) (main_arg12 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg8 : FVec F S128 .f32) (main_arg9 : FVec F S8x16x1 .f32) (main_arg10 : FVec F S8x16x1 .f32) (main_arg11 : FVec F S128x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S8x16x1 .f32 := Host.absf main_arg9
  let main_cst_8 : FVec F S_ .f32 := constant S_ .f32 0x7F800000#32
  let main_v25 : FVec F S8x16x1 .f32 := broadcastInDim S8x16x1 ![] bcast_S_S8x16x1 main_cst_8
  let main_v26 : IVec S8x16x1 1 := cmpf .olt main_v24 main_v25
  let main_c_9 : IVec S_ 1 := constantI S_ 1 1#1
  let main_v27 : IVec S_ 1 := (fun x v => Host.reduce IntOp.andi x v reducesTo_S8x16x1_S_d0_1_2 h_S_) main_v26 main_c_9
  let main_v28 : IVec S_ 1 := andi main_v23 main_v27
  let main_v29 : FVec F S8x16x1 .f32 := Host.absf main_arg10
  let main_cst_10 : FVec F S_ .f32 := constant S_ .f32 0x7F800000#32
  let main_v30 : FVec F S8x16x1 .f32 := broadcastInDim S8x16x1 ![] bcast_S_S8x16x1 main_cst_10
  let main_v31 : IVec S8x16x1 1 := cmpf .olt main_v29 main_v30
  let main_c_11 : IVec S_ 1 := constantI S_ 1 1#1
  let main_v32 : IVec S_ 1 := (fun x v => Host.reduce IntOp.andi x v reducesTo_S8x16x1_S_d0_1_2 h_S_) main_v31 main_c_11
  let main_v33 : IVec S_ 1 := andi main_v28 main_v32
  fn_part2 (F := F) main_arg11 main_arg12 main_v33

def fn {F : FTy → Type} [FloatOps F] (main_arg0 : FVec F S50000x128 .f32) (main_arg1 : IVec S800000 32) (main_arg2 : IVec S800000 32) (main_arg3 : IVec S800000 32) (main_arg4 : IVec S800000 32) (main_arg5 : FVec F S50000x1 .f32) (main_arg6 : FVec F S50000x1 .f32) (main_arg7 : FVec F S128x128 .f32) (main_arg8 : FVec F S128 .f32) (main_arg9 : FVec F S8x16x1 .f32) (main_arg10 : FVec F S8x16x1 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg5
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x1 .f32 := Host.absf main_arg6
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S50000x128 : Shape := ⟨2, ![50000, 128]⟩
abbrev S800000 : Shape := ⟨1, ![800000]⟩
abbrev S50000x1 : Shape := ⟨2, ![50000, 1]⟩
abbrev S128x128 : Shape := ⟨2, ![128, 128]⟩
abbrev S128 : Shape := ⟨1, ![128]⟩
abbrev S8x16x1 : Shape := ⟨3, ![8, 16, 1]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S8x50000x16 : Shape := ⟨3, ![8, 50000, 16]⟩
abbrev S8x1x16 : Shape := ⟨3, ![8, 1, 16]⟩
abbrev S8x400x16 : Shape := ⟨3, ![8, 400, 16]⟩
abbrev S8x400 : Shape := ⟨2, ![8, 400]⟩
abbrev S8x400x1 : Shape := ⟨3, ![8, 400, 1]⟩

abbrev nBuf : Space → Nat
  | .hbm => 76
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S50000x1, .f32⟩
  | .hbm, ⟨6, _⟩ => ⟨S50000x1, .f32⟩
  | .hbm, ⟨7, _⟩ => ⟨S128x128, .f32⟩
  | .hbm, ⟨8, _⟩ => ⟨S128, .f32⟩
  | .hbm, ⟨9, _⟩ => ⟨S8x16x1, .f32⟩
  | .hbm, ⟨10, _⟩ => ⟨S8x16x1, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S50000x128, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x1, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x1, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S8x50000x16, .f32⟩
  | .hbm, ⟨68, _⟩ => ⟨S8x50000x16, .f32⟩
  | .hbm, ⟨69, _⟩ => ⟨S8x50000x16, .f32⟩
  | .hbm, ⟨70, _⟩ => ⟨S8x1x16, .f32⟩
  | .hbm, ⟨71, _⟩ => ⟨S8x1x16, .f32⟩
  | .hbm, ⟨72, _⟩ => ⟨S8x50000x16, .f32⟩
  | .hbm, ⟨73, _⟩ => ⟨S50000x128, .f32⟩
  | .hbm, ⟨74, _⟩ => ⟨S1x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8x400x16, .f32⟩
  | .local _ .vmem, ⟨7, _⟩ => ⟨S8x400x16, .f32⟩
  | .local _ .vmem, ⟨8, _⟩ => ⟨S8x400x16, .f32⟩
  | .local _ .vmem, ⟨9, _⟩ => ⟨S8x400x16, .f32⟩
  | .local _ .vmem, ⟨10, _⟩ => ⟨S8x400x16, .f32⟩
  | .local _ .vmem, ⟨11, _⟩ => ⟨S8x400x16, .f32⟩
  | .local _ .vmem, ⟨12, _⟩ => ⟨S8x1x16, .f32⟩
  | .local _ .vmem, ⟨13, _⟩ => ⟨S8x1x16, .f32⟩
  | .local _ .vmem, ⟨14, _⟩ => ⟨S8x400x16, .f32⟩
  | .local _ .vmem, ⟨15, _⟩ => ⟨S8x400x16, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x400x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x400x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S50000x128_S8x50000x16 : S50000x128.ShapeCasts S8x50000x16
  shapeCasts_S8x16x1_S8x1x16 : S8x16x1.ShapeCasts S8x1x16
  inb_S8x400x16_S8x400x16_0_0_0 : ∀ a, (![0, 0, 0] : Fin 3 → Nat) a + S8x400x16.size a ≤ S8x400x16.size a
  h_S8x400x16 : 0 < S8x400x16.numel
  shapeCasts_S8x400x16_S8x400x16 : S8x400x16.ShapeCasts S8x400x16
  inb_S8x1x16_S8x1x16_0_0_0 : ∀ a, (![0, 0, 0] : Fin 3 → Nat) a + S8x1x16.size a ≤ S8x1x16.size a
  h_S8x1x16 : 0 < S8x1x16.numel
  shapeCasts_S8x1x16_S8x1x16 : S8x1x16.ShapeCasts S8x1x16
  broadcasts_S8x1x16_S8x400x16 : S8x1x16.Broadcasts S8x400x16
  reduces_S8x400x16_S8x400 : S8x400x16.Reduces [2] S8x400
  shapeCasts_S8x400_S8x400x1 : S8x400.ShapeCasts S8x400x1
  broadcasts_S8x400x1_S8x400x16 : S8x400x1.Broadcasts S8x400x16
  shapeCasts_S8x50000x16_S50000x128 : S8x50000x16.ShapeCasts S50000x128
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  gather_S50000x1_S800000x1_S800000x1_1_0_n_n_0_1_11_wf : GatherDims.WF S50000x1 S800000x1 S800000x1 [1] [0] [] [0] [] 1 ![1, 1]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x400x16.size a ≤ S8x50000x16.size a
  hwx1_0 : ∀ i : grid1.Coords, EltTy.bits .f32 = 32 ∨ (Rect.block (s := S8x50000x16) S8x400x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x400x16.size a ≤ S8x50000x16.size a
  hwx1_1 : ∀ i : grid1.Coords, EltTy.bits .f32 = 32 ∨ (Rect.block (s := S8x50000x16) S8x400x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x400x16.size a ≤ S8x50000x16.size a
  hwx1_2 : ∀ i : grid1.Coords, EltTy.bits .f32 = 32 ∨ (Rect.block (s := S8x50000x16) S8x400x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1x16.size a ≤ S8x1x16.size a
  hwx1_3 : ∀ i : grid1.Coords, EltTy.bits .f32 = 32 ∨ (Rect.block (s := S8x1x16) S8x1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1x16.size a ≤ S8x1x16.size a
  hwx1_4 : ∀ i : grid1.Coords, EltTy.bits .f32 = 32 ∨ (Rect.block (s := S8x1x16) S8x1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x400x16.size a ≤ S8x50000x16.size a
  hwx1_5 : ∀ i : grid1.Coords, EltTy.bits .f32 = 32 ∨ (Rect.block (s := S8x50000x16) S8x400x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S8x400x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8x400x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S8x400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S8x1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S8x1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S8x400x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S50000x1 : Shape := ⟨2, ![50000, 1]⟩
abbrev S128x128 : Shape := ⟨2, ![128, 128]⟩
abbrev S128 : Shape := ⟨1, ![128]⟩
abbrev S8x16x1 : Shape := ⟨3, ![8, 16, 1]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S8x50000x16 : Shape := ⟨3, ![8, 50000, 16]⟩
abbrev S8x50000x1 : Shape := ⟨3, ![8, 50000, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S50000x1, .f32⟩
  | .hbm, ⟨6, _⟩ => ⟨S50000x1, .f32⟩
  | .hbm, ⟨7, _⟩ => ⟨S128x128, .f32⟩
  | .hbm, ⟨8, _⟩ => ⟨S128, .f32⟩
  | .hbm, ⟨9, _⟩ => ⟨S8x16x1, .f32⟩
  | .hbm, ⟨10, _⟩ => ⟨S8x16x1, .f32⟩
  | .hbm, ⟨11, _⟩ => ⟨S128x128, .f32⟩
  | .hbm, ⟨12, _⟩ => ⟨S128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x1, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x1, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S8x50000x16, .f32⟩
  | .hbm, ⟨70, _⟩ => ⟨S8x50000x16, .f32⟩
  | .hbm, ⟨71, _⟩ => ⟨S8x50000x16, .f32⟩
  | .hbm, ⟨72, _⟩ => ⟨S8x50000x1, .f32⟩
  | .hbm, ⟨73, _⟩ => ⟨S8x50000x1, .f32⟩
  | .hbm, ⟨74, _⟩ => ⟨S8x50000x1, .f32⟩
  | .hbm, ⟨75, _⟩ => ⟨S8x50000x1, .f32⟩
  | .hbm, ⟨76, _⟩ => ⟨S_, .f32⟩
  | .hbm, ⟨77, _⟩ => ⟨S8x50000x1, .f32⟩
  | .hbm, ⟨78, _⟩ => ⟨S8x50000x1, .i1⟩
  | .hbm, ⟨79, _⟩ => ⟨S_, .f32⟩
  | .hbm, ⟨80, _⟩ => ⟨S8x50000x1, .f32⟩
  | .hbm, ⟨81, _⟩ => ⟨S8x50000x1, .f32⟩
  | .hbm, ⟨82, _⟩ => ⟨S8x50000x1, .f32⟩
  | .hbm, ⟨83, _⟩ => ⟨S8x50000x1, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8x50000x1, .f32⟩
  | .hbm, ⟨88, _⟩ => ⟨S8x50000x1, .f32⟩
  | .hbm, ⟨89, _⟩ => ⟨S_, .f32⟩
  | .hbm, ⟨90, _⟩ => ⟨S8x50000x1, .f32⟩
  | .hbm, ⟨91, _⟩ => ⟨S8x50000x1, .f32⟩
  | .hbm, ⟨92, _⟩ => ⟨S8x50000x1, .f32⟩
  | .hbm, ⟨93, _⟩ => ⟨S_, .f32⟩
  | .hbm, ⟨94, _⟩ => ⟨S8x50000x1, .f32⟩
  | .hbm, ⟨95, _⟩ => ⟨S8x50000x1, .i1⟩
  | .hbm, ⟨96, _⟩ => ⟨S_, .f32⟩
  | .hbm, ⟨97, _⟩ => ⟨S8x50000x1, .f32⟩
  | .hbm, ⟨98, _⟩ => ⟨S8x50000x1, .f32⟩
  | .hbm, ⟨99, _⟩ => ⟨S8x50000x1, .f32⟩
  | .hbm, ⟨100, _⟩ => ⟨S8x50000x1, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8x50000x1, .f32⟩
  | .hbm, ⟨105, _⟩ => ⟨S8x50000x1, .f32⟩
  | .hbm, ⟨106, _⟩ => ⟨S_, .f32⟩
  | .hbm, ⟨107, _⟩ => ⟨S8x50000x1, .f32⟩
  | .hbm, ⟨108, _⟩ => ⟨S8x50000x1, .f32⟩
  | .hbm, ⟨109, _⟩ => ⟨S8x50000x1, .f32⟩
  | .hbm, ⟨110, _⟩ => ⟨S8x50000x1, .f32⟩
  | .hbm, ⟨111, _⟩ => ⟨S8x50000x16, .f32⟩
  | .hbm, ⟨112, _⟩ => ⟨S8x50000x16, .f32⟩
  | .hbm, ⟨113, _⟩ => ⟨S8x50000x1, .f32⟩
  | .hbm, ⟨114, _⟩ => ⟨S8x50000x16, .f32⟩
  | .hbm, ⟨115, _⟩ => ⟨S8x50000x16, .f32⟩
  | .hbm, ⟨116, _⟩ => ⟨S8x50000x16, .f32⟩
  | .hbm, ⟨117, _⟩ => ⟨S50000x128, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_cst_11 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_cst_15 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S50000x128_S8x50000x16 : S50000x128.ShapeCasts S8x50000x16
  bcast_S_S8x50000x1 : S_.BroadcastsInDim S8x50000x1 (![] : Fin 0 → Fin S8x50000x1.rank)
  bcast_S8x50000x1_S8x50000x16_0_1_2 : S8x50000x1.BroadcastsInDim S8x50000x16 (![0, 1, 2] : Fin 3 → Fin S8x50000x16.rank)
  shapeCasts_S8x50000x16_S50000x128 : S8x50000x16.ShapeCasts S50000x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  gather_S50000x1_S800000x1_S800000x1_1_0_n_n_0_1_11_wf : GatherDims.WF S50000x1 S800000x1 S800000x1 [1] [0] [] [0] [] 1 ![1, 1]
  scatter_S50000x128_S800000x1_S800000x128_1_0_0_1_wf : ScatterDims.WF S50000x128 S800000x1 S800000x128 [1] [0] [0] 1
  dot_S8x50000x16_S8x16x1_S8x50000x1_2_1_1_2_0_0_wf : DotDims.WF S8x50000x16 S8x16x1 S8x50000x1 [2] [1] [1] [2] [0] [0]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S8x50000x16_S8x16x1_S8x50000x1_2_1_1_2_0_0 : DotDims S8x50000x16 S8x16x1 S8x50000x1 where
  lhsContracting := [2]
  rhsContracting := [1]
  lhsNonContracting := [1]
  rhsNonContracting := [2]
  lhsBatch := [0]
  rhsBatch := [0]
  wf := dot_S8x50000x16_S8x16x1_S8x50000x1_2_1_1_2_0_0_wf

class Facts : Prop extends Facts₀ where

variable [Facts]
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibAffineLayer.lean ====
/-
  A row-blocked linear layer over the extended reals.

  For a matrix x [M, K], a weight w [K, N] and a bias held as one row b [1, N], the layer's entry (p, g) is
  the sum over k < K of x(p, k) * w(k, g), plus b(0, g). Two programs compute it:
  • a host program multiplies with dot_general and adds the bias vector [N] set as a row and spread down the rows;
  • a kernel body narrows both factors to a shorter float format (the identity on the extended reals), multiplies
    into a zero accumulator and adds the row it was handed, spread down the rows.
  Both are this one function, index by index; no finiteness is needed, since a finite sum of products and one
  addition are the same expression on both sides. General in the three extents M, K, N:
  • `affine` / `affine_apply`: the layer and its entry (p, g);
  • `host_eq`: the host's form (dot_general with the plain dimension numbers, plus the bias vector [N] set as a row
    with broadcast_in_dim dims [1] and spread with dims [0, 1]) is the layer at the bias viewed as one row;
  • `body_eq`: a kernel body's form (both factors narrowed to bf16, a matrix product into the zero accumulator, plus
    the [1, N] row spread by a vector broadcast) is the layer of the loaded blocks;
  • `affine_congr`: two entries of two layers agree when the rows, columns and bias entries they read agree (what
    turns a row block of the output into the matching row block of the input, the whole weight and the bias row).
-/
import proofs.«160960_j5360119185954_2_alg».proof.Proof.LibPlainDot
import proofs.«160960_j5360119185954_2_alg».proof.Proof.LibBroadcastInDim
import Idealize.ShloMosaic.Lib.ValueLayout
import Idealize.ShloMosaic.Lib.Pipeline.Value

noncomputable section

namespace Cert.Affine

open Idealize.ShloMosaic Idealize.ShloMosaic.ValueIdx

variable {M K N : ℕ}

/-- The layer: entry (p, g) is the sum over k of x(p, k) * w(k, g), plus the bias row's entry g. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun j => (∑ k : Fin K, x (ix2 (j 0) k) * w (ix2 k (j 1))) + b (ix2 (0 : Fin 1) (j 1))

theorem affine_apply (x : FVec Ideal ⟨2, ![M, K]⟩ .f32) (w : FVec Ideal ⟨2, ![K, N]⟩ .f32) (b : FVec Ideal ⟨2, ![1, N]⟩ .f32)
    (p : Fin M) (g : Fin N) :
    affine x w b (ix2 p g) = (∑ k : Fin K, x (ix2 p k) * w (ix2 k g)) + b (ix2 (0 : Fin 1) g) := rfl

/-- The host's form: dot_general, plus the bias vector set as a row and spread down the rows, is the layer at the
    bias vector viewed as one row. -/
theorem host_eq (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).ShapeCasts ⟨2, ![1, N]⟩)
    (h3 : (⟨2, ![1, N]⟩ : Shape).BroadcastsInDim ⟨2, ![M, N]⟩ ![0, 1])
    (h4 : (⟨1, ![N]⟩ : Shape).BroadcastsInDim ⟨2, ![1, N]⟩ ![1]) :
    addf (Host.dotGeneral (F := Ideal) d none x w)
        (broadcastInDim ⟨2, ![M, N]⟩ ![0, 1] h3 (broadcastInDim ⟨2, ![1, N]⟩ ![1] h4 b))
      = affine x w (shapeCast ⟨2, ![1, N]⟩ b h1) := by
  funext j
  obtain ⟨p, g, rfl⟩ : ∃ (p : Fin M) (g : Fin N), j = ix2 p g := ⟨j 0, j 1, eq_ix2 j⟩
  rw [addf_apply, Cert.PlainDot.hostDot_apply d hd, Cert.Lib.InDim.row_spread, Cert.Lib.InDim.vec_as_row, affine_apply,
    shapeCast_a_1a_apply]

/-- The kernel body's form: both factors narrowed, multiplied into the zero accumulator, plus the row spread down the
    rows, is the layer of the loaded blocks. -/
theorem body_eq (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![M, N]⟩) :
    addf (matmul (F := Ideal) d none (truncf .bf16 x ht) (truncf .bf16 w ht) (constant ⟨2, ![M, N]⟩ .f32 0x00000000#32))
        (broadcastTo ⟨2, ![M, N]⟩ b hb)
      = affine x w b := by
  funext j
  obtain ⟨p, g, rfl⟩ : ∃ (p : Fin M) (g : Fin N), j = ix2 p g := ⟨j 0, j 1, eq_ix2 j⟩
  rw [addf_apply, Cert.PlainDot.matmul_zero_apply d hd, broadcastTo_1b_ab_apply, affine_apply]
  rfl

/-- Two entries of two layers agree when the rows, columns and bias entries they read agree: what a block of the
    output needs of the blocks of the operands. -/
theorem affine_congr {M' : ℕ} (x : FVec Ideal ⟨2, ![M, K]⟩ .f32) (w : FVec Ideal ⟨2, ![K, N]⟩ .f32) (b : FVec Ideal ⟨2, ![1, N]⟩ .f32)
    (X : FVec Ideal ⟨2, ![M', K]⟩ .f32) (W : FVec Ideal ⟨2, ![K, N]⟩ .f32) (B : FVec Ideal ⟨2, ![1, N]⟩ .f32)
    (j : (⟨2, ![M, N]⟩ : Shape).Idx) (j' : (⟨2, ![M', N]⟩ : Shape).Idx)
    (hx : ∀ k : Fin K, x (ix2 (j 0) k) = X (ix2 (j' 0) k)) (hw : ∀ k : Fin K, w (ix2 k (j 1)) = W (ix2 k (j' 1)))
    (hb : b (ix2 (0 : Fin 1) (j 1)) = B (ix2 (0 : Fin 1) (j' 1))) :
    affine x w b j = affine X W B j' := by
  unfold affine
  rw [hb]
  exact congrArg (· + _) (Finset.sum_congr rfl fun k _ => by rw [hx k, hw k])

end Cert.Affine

end
-- ==== Proof.InputProjection.lean ====
/-
  The first grid region: the input projection.

  The region's ten grid points each load a block of 5000 rows of the node features, the whole 128 x 128 weight and the
  bias row, and store the linear layer of those blocks into the matching block of 5000 rows of the output. Read as a
  whole, the output array therefore ends holding the linear layer of the three whole arrays the region was entered
  with: entry (r, g) needs row r of the features only, and row r lies in block r / 5000.
-/
import proofs.«160960_j5360119185954_2_alg».proof.Proof.KernelIdealFrame
import proofs.«160960_j5360119185954_2_alg».proof.Proof.LibAffineLayer

set_option maxRecDepth 16384

noncomputable section

namespace Cert.KernelIdeal.InputProjection

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

-- the buffer contents when the region is entered: every statement here holds for any such contents
variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the layer of its three loaded blocks. -/
theorem body_value (x0 : Vec Ideal S5000x128 .f32) (x1 : Vec Ideal S128x128 .f32) (x2 : Vec Ideal S1x128 .f32) :
    k0_pay1 (F := Ideal) x0 x1 x2 = Cert.Affine.affine (M := 5000) (K := 128) (N := 128) x0 x1 x2 := by
  simp only [k0_pay1, shapeCast_self]
  exact Cert.Affine.body_eq dot_S5000x128_S128x128_S5000x128_1_0_0_1_n_n rfl x0 x1 x2 _ _

/-- The printed index maps over the ten grid points: the row blocks of the input and of the output move together, point
    t at block t; the weight and the bias row are one block, at the origin. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t (rows 5000 t … 5000 t + 4999) of the layer of the three whole arrays: an
    output row needs its own input row, the whole weight and the bias row. -/
theorem flushed_eq (c : Dev nD) (t : Fin cfg0.N) :
    (dat0 V c).flushed 3 t = ((cfg0.win 3).blk t).view.read (Elt Ideal)
      (Cert.Affine.affine (M := 50000) (K := 128) (N := 128) (V c main_arg0) (V c main_arg7) (V c main_v0)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2,
    View.ld_unit_zero (S := S1x128) origin2]
  rw [body_value]
  obtain ⟨e00, e01, e10, e11, e20, e21, e30, e31⟩ := block_index t
  funext y
  refine Cert.Affine.affine_congr (M := 5000) (M' := 50000) (K := 128) (N := 128) (iblk0 V c 0 t) (iblk0 V c 1 t) (iblk0 V c 2 t)
    (V c main_arg0) (V c main_arg7) (V c main_v0) y (((cfg0.win 3).blk t).view.emb y) (fun k => ?_) (fun k => ?_) ?_
  · show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  · show V c main_arg7 (((cfg0.win 1).blk t).view.emb (ix2 k (y 1))) = V c main_arg7 (ix2 k ((((cfg0.win 3).blk t).view.emb y) 1))
    refine congrArg (V c main_arg7) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_3.index t (1 : Fin 2) * 128 + 1 * (y 1).val; omega
  · show V c main_v0 (((cfg0.win 2).blk t).view.emb (ix2 (0 : Fin 1) (y 1))) = V c main_v0 (ix2 (0 : Fin 1) ((((cfg0.win 3).blk t).view.emb y) 1))
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * (y 1).val = win0_3.index t (1 : Fin 2) * 128 + 1 * (y 1).val; omega

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Row r of the output is written by grid point r / 5000: the ten row blocks tile the array. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨e00, e01, e10, e11, e20, e21, e30, e31⟩ := block_index t
  have ht : t.val = (i 0).val / 5000 := rfl
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the layer of the three arrays as the region found them. -/
theorem final (c : Dev nD) :
    (dat0 V c).arrAt 3 cfg0.N
      = Cert.Affine.affine (M := 50000) (K := 128) (N := 128) (V c main_arg0) (V c main_arg7) (V c main_v0) :=
  (dat0 V c).arrAt_eq_of_cover 3 _ (fun t _ => flushed_eq V c t) covered

end Cert.KernelIdeal.InputProjection

end
-- ==== Proof.Attend.lean ====
/-
  The two-neighbourhood attention mix over the extended reals, index by index.

  For per-head features hr, h1, h2 of shape [H, n, D] and per-head attention vectors al, ar held as [H, 1, D], the mix's
  entry (h, q, d) depends only on the three rows (h, q, ·) and on the two vectors' rows (h, 0, ·):
    s0 = Σ_k hr(h,q,k) * al(h,0,k),   s1 = Σ_k h1(h,q,k) * ar(h,0,k),   s2 = Σ_k h2(h,q,k) * ar(h,0,k),
    w1 = weight (s0 + s1),            w2 = weight (s0 + s2),
    out(h,q,d) = w1 / (w1 + w2) * h1(h,q,d) + w2 / (w1 + w2) * h2(h,q,d),
  where weight s = min 10 (max (-10) (exp (leaky s))) and leaky s is s when s > 0 and 0.2 * s otherwise (the
  literals are kept as their binary words: the same words on both sides are never evaluated).
-/
import Idealize.ShloMosaic.Lib.ValueIdx
import Idealize.ShloMosaic.Lib.Pipeline.Value
import Idealize.ShloMosaic.PureOps.Ideal.Laws

noncomputable section

namespace Cert.Attend

open Idealize.ShloMosaic Idealize.ShloMosaic.ValueIdx

/-- The clipped exponential of the leaky rectifier: min 10 (max (-10) (exp (if s > 0 then s else 0.2 * s))). -/
def weight (s : Ideal .f32) : Ideal .f32 :=
  FloatOps.minimumf (FloatOps.ofBits .f32 0x41200000#32) (FloatOps.maximumf (FloatOps.ofBits .f32 0xC1200000#32)
    (FloatOps.exp (Scalar.select (FloatOps.cmpf .ogt s (FloatOps.ofBits .f32 0x00000000#32)) s
      (FloatOps.mulf (FloatOps.ofBits .f32 0x3E4CCCCD#32) s))))

/-- One output entry from the three feature rows r, r1, r2 and the two attention rows a, b. -/
def mix {D : ℕ} (r r1 r2 a b : Fin D → EReal) (d : Fin D) : EReal :=
  Ideal.div (weight ((∑ k, r k * a k) + ∑ k, r1 k * b k))
      (weight ((∑ k, r k * a k) + ∑ k, r1 k * b k) + weight ((∑ k, r k * a k) + ∑ k, r2 k * b k)) * r1 d
    + Ideal.div (weight ((∑ k, r k * a k) + ∑ k, r2 k * b k))
      (weight ((∑ k, r k * a k) + ∑ k, r1 k * b k) + weight ((∑ k, r k * a k) + ∑ k, r2 k * b k)) * r2 d

variable {H n D : ℕ}

/-- The mix as one whole-array function. -/
def attend (hr h1 h2 : FVec Ideal ⟨3, ![H, n, D]⟩ .f32) (al ar : FVec Ideal ⟨3, ![H, 1, D]⟩ .f32) :
    FVec Ideal ⟨3, ![H, n, D]⟩ .f32 :=
  fun j => mix (fun k => hr (ix3 (j 0) (j 1) k)) (fun k => h1 (ix3 (j 0) (j 1) k)) (fun k => h2 (ix3 (j 0) (j 1) k))
    (fun k => al (ix3 (j 0) (0 : Fin 1) k)) (fun k => ar (ix3 (j 0) (0 : Fin 1) k)) (j 2)

theorem attend_apply (hr h1 h2 : FVec Ideal ⟨3, ![H, n, D]⟩ .f32) (al ar : FVec Ideal ⟨3, ![H, 1, D]⟩ .f32)
    (h : Fin H) (q : Fin n) (d : Fin D) :
    attend hr h1 h2 al ar (ix3 h q d)
      = mix (fun k => hr (ix3 h q k)) (fun k => h1 (ix3 h q k)) (fun k => h2 (ix3 h q k))
          (fun k => al (ix3 h (0 : Fin 1) k)) (fun k => ar (ix3 h (0 : Fin 1) k)) d := rfl

/-- Two entries of two mixes agree when the five rows they read agree, and the feature entries they scale: what a block
    of the output needs of the blocks of the operands. -/
theorem attend_congr {n' : ℕ} (hr h1 h2 : FVec Ideal ⟨3, ![H, n, D]⟩ .f32) (al ar : FVec Ideal ⟨3, ![H, 1, D]⟩ .f32)
    (hr' h1' h2' : FVec Ideal ⟨3, ![H, n', D]⟩ .f32) (al' ar' : FVec Ideal ⟨3, ![H, 1, D]⟩ .f32)
    (j : (⟨3, ![H, n, D]⟩ : Shape).Idx) (j' : (⟨3, ![H, n', D]⟩ : Shape).Idx) (hd : (j 2).val = (j' 2).val)
    (e0 : ∀ k : Fin D, hr (ix3 (j 0) (j 1) k) = hr' (ix3 (j' 0) (j' 1) k))
    (e1 : ∀ k : Fin D, h1 (ix3 (j 0) (j 1) k) = h1' (ix3 (j' 0) (j' 1) k))
    (e2 : ∀ k : Fin D, h2 (ix3 (j 0) (j 1) k) = h2' (ix3 (j' 0) (j' 1) k))
    (e3 : ∀ k : Fin D, al (ix3 (j 0) (0 : Fin 1) k) = al' (ix3 (j' 0) (0 : Fin 1) k))
    (e4 : ∀ k : Fin D, ar (ix3 (j 0) (0 : Fin 1) k) = ar' (ix3 (j' 0) (0 : Fin 1) k)) :
    attend hr h1 h2 al ar j = attend hr' h1' h2' al' ar' j' := by
  unfold attend
  have hd' : j 2 = j' 2 := Fin.ext hd
  rw [funext e0, funext e1, funext e2, funext e3, funext e4, hd']

/-- A per-head vector stored as a column [H, D, 1] and viewed as a row [H, 1, D]: entry (h, 0, k) of the row is entry
    (h, k, 0) of the column (both sit at row-major position h * D + k). -/
theorem column_as_row (x : (⟨3, ![H, D, 1]⟩ : Shape).Idx → EReal) (hc : (⟨3, ![H, D, 1]⟩ : Shape).ShapeCasts ⟨3, ![H, 1, D]⟩)
    (h : Fin H) (u : Fin 1) (k : Fin D) :
    shapeCast ⟨3, ![H, 1, D]⟩ x hc (ix3 h u k) = x (ix3 h k (0 : Fin 1)) :=
  shapeCast_apply x hc _ _ (by
    have hu : u.val = 0 := by omega
    rw [Shape.rowMajor_val_three, Shape.rowMajor_val_three]
    show (h.val * D + k.val) * 1 + 0 = (h.val * 1 + u.val) * D + k.val
    rw [hu]; ring)

end Cert.Attend

end
-- ==== Proof.LibRank3Layouts.lean ====
/-
  Layout operations on rank-3 arrays read at an index written by coordinates: the forms a pairwise sum
  `x[:, None, :] + y[None, :, :]` and a last-axis reduction kept as a unit axis (`keepdims`) are built from.
  Each is the parent lemma of Lib/Pipeline/Value.lean (`shapeCast_apply`: equal row-major positions;
  `broadcastTo_apply`: the operand's coordinate is the result's, or 0 on a unit axis) with both indices written
  `ix2 …` / `ix3 …`, general in the extents.
  • `shapeCast_ac_a1c_apply`   [a, c]    → [a, 1, c]  : (i, u, j) reads (i, j)
  • `shapeCast_ab_ab1_apply`   [a, b]    → [a, b, 1]  : (i, j, u) reads (i, j)
  • `broadcastTo_a1c_abc_apply` [a, 1, c] → [a, b, c]  : (i, q, j) reads (i, 0, j)
  • `broadcastTo_1bc_abc_apply` [1, b, c] → [a, b, c]  : (p, i, j) reads (0, i, j)
  • `broadcastTo_ab1_abc_apply` [a, b, 1] → [a, b, c]  : (i, j, k) reads (i, j, 0)
-/
import Idealize.ShloMosaic.Lib.ValueLayout

namespace Cert.LibRank3

open Idealize.ShloMosaic Idealize.ShloMosaic.ValueIdx

variable {α : Type}

/-- An `[a, c]` array cast to `[a, 1, c]` reads, at `(i, u, j)`, the operand at `(i, j)`: the unit axis adds nothing
    to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, q, j)`, the operand's one middle entry `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (j : Fin c) :
    broadcastTo ⟨3, ![a, b, c]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand's one leading entry `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, b, 1]` array broadcast to `[a, b, c]` reads, at `(i, j, k)`, the operand's one trailing entry `(i, j, 0)`:
    a kept reduction spread back over the reduced axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibRank3
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.AttentionRegion.lean ====
/-
  The second grid region: the attention mix.

  Each of the region's 125 grid points loads, for all eight heads, a block of 400 node rows of the three per-head
  feature arrays and the two per-head attention rows, and stores the attention mix of those blocks into the matching
  block of the output. An output entry (h, q, d) needs only the rows (h, q, ·) of the three feature arrays and the rows
  (h, 0, ·) of the two attention vectors, and node row q lies in block q / 400; so, read as a whole, the output array
  ends holding the mix of the five whole arrays the region was entered with.
-/
import proofs.«160960_j5360119185954_2_alg».proof.Proof.KernelIdealFrame
import proofs.«160960_j5360119185954_2_alg».proof.Proof.Attend
import proofs.«160960_j5360119185954_2_alg».proof.Proof.LibRank3Layouts
import proofs.«160960_j5360119185954_2_alg».proof.Proof.LibAxisFolds

set_option maxRecDepth 16384

noncomputable section

namespace Cert.KernelIdeal.AttentionRegion

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The body's stored value -/

/-- A feature block's score against an attention row: the lane sum of the elementwise product, kept as a column. -/
theorem score (x : Vec Ideal S8x400x16 .f32) (a : Vec Ideal S8x1x16 .f32) (h : Fin 8) (q : Fin 400) (u : Fin 1) :
    shapeCast S8x400x1 (multiReduction (F := Ideal) .add [2] S8x400
        (mulf (shapeCast S8x400x16 x shapeCasts_S8x400x16_S8x400x16)
          (broadcastTo S8x400x16 (shapeCast S8x1x16 a shapeCasts_S8x1x16_S8x1x16) broadcasts_S8x1x16_S8x400x16))
        0x00000000#32 reduces_S8x400x16_S8x400 (.inl rfl) rfl) shapeCasts_S8x400_S8x400x1 (ix3 h q u)
      = ∑ k : Fin 16, x (ix3 h q k) * a (ix3 h (0 : Fin 1) k) := by
  rw [Cert.LibRank3.shapeCast_ab_ab1_apply]
  refine (Cert.Lib.AxisFolds.lastSum3_apply (a := 8) (b := 400) (c := 16) _ _ _ _ _ h q).trans ?_
  refine Finset.sum_congr rfl fun k _ => ?_
  rw [mulf_apply, shapeCast_self, shapeCast_self, Cert.LibRank3.broadcastTo_a1c_abc_apply]

/-- The body's stored value is the attention mix of its five loaded blocks. -/
theorem body_value (x0 x1 x2 : Vec Ideal S8x400x16 .f32) (x3 x4 : Vec Ideal S8x1x16 .f32) :
    k1_pay1 (F := Ideal) (k1_pay2 x1) (k1_pay3 x2) (k1_pay6 x0 x1 x3 x4) (k1_pay7 x0 x2 x3 x4) (k1_pay8 x0 x2 x3 x4)
      = Cert.Attend.attend (H := 8) (n := 400) (D := 16) x0 x1 x2 x3 x4 := by
  funext j
  obtain ⟨h, q, d, rfl⟩ : ∃ (h : Fin 8) (q : Fin 400) (d : Fin 16), j = ix3 h q d := ⟨j 0, j 1, j 2, eq_ix3 j⟩
  rw [Cert.Attend.attend_apply]
  have s0 := score x0 x3 h q (0 : Fin 1)
  have s1 := score x1 x4 h q (0 : Fin 1)
  have s2 := score x2 x4 h q (0 : Fin 1)
  -- the first gate's value and the second gate's argument, at the column entry of node row (h, q)
  have e1 : k1_pay6 (F := Ideal) x0 x1 x3 x4 (ix3 h q (0 : Fin 1))
      = Cert.Attend.weight ((∑ k : Fin 16, x0 (ix3 h q k) * x3 (ix3 h (0 : Fin 1) k))
          + ∑ k : Fin 16, x1 (ix3 h q k) * x4 (ix3 h (0 : Fin 1) k)) := by
    rw [← s0, ← s1]; rfl
  have e2 : k1_pay7 (F := Ideal) x0 x2 x3 x4 (ix3 h q (0 : Fin 1))
      = (∑ k : Fin 16, x0 (ix3 h q k) * x3 (ix3 h (0 : Fin 1) k)) + ∑ k : Fin 16, x2 (ix3 h q k) * x4 (ix3 h (0 : Fin 1) k) := by
    rw [← s0, ← s2]; rfl
  have p2 : k1_pay2 (F := Ideal) x1 = x1 := by simp only [k1_pay2, shapeCast_self]
  have p3 : k1_pay3 (F := Ideal) x2 = x2 := by simp only [k1_pay3, shapeCast_self]
  -- the stored value at (h, q, d): the two normalised gates times the two neighbourhood features
  have e : k1_pay1 (F := Ideal) x1 x2 (k1_pay6 x0 x1 x3 x4) (k1_pay7 x0 x2 x3 x4) (k1_pay8 x0 x2 x3 x4) (ix3 h q d)
      = Ideal.div (k1_pay6 (F := Ideal) x0 x1 x3 x4 (ix3 h q (0 : Fin 1)))
            (k1_pay6 (F := Ideal) x0 x1 x3 x4 (ix3 h q (0 : Fin 1)) + Cert.Attend.weight (k1_pay7 (F := Ideal) x0 x2 x3 x4 (ix3 h q (0 : Fin 1)))) * x1 (ix3 h q d)
        + Ideal.div (Cert.Attend.weight (k1_pay7 (F := Ideal) x0 x2 x3 x4 (ix3 h q (0 : Fin 1))))
            (k1_pay6 (F := Ideal) x0 x1 x3 x4 (ix3 h q (0 : Fin 1)) + Cert.Attend.weight (k1_pay7 (F := Ideal) x0 x2 x3 x4 (ix3 h q (0 : Fin 1)))) * x2 (ix3 h q d) := by
    simp only [k1_pay1]
    rw [addf_apply, mulf_apply, mulf_apply, Cert.LibRank3.broadcastTo_ab1_abc_apply, Cert.LibRank3.broadcastTo_ab1_abc_apply]
    rfl
  rw [p2, p3, e, e1, e2]
  rfl

/-! ## From the blocks to the array -/

-- the buffer contents when the region is entered: every statement below holds for any such contents
variable (V : (c : Dev nD) → (b : Ref sig .tc) → Buf (Elt Ideal) ((c : Thread nD τ).loc b))

theorem origin3 : (![0, 0, 0] : Fin 3 → Nat) = fun _ => 0 := funext fun a => by fin_cases a <;> rfl

/-- The printed index maps over the 125 grid points: the node-row blocks of the three feature arrays and of the output
    move together, point t at block t of the node axis; the two attention rows are one block, at the origin. -/
theorem block_index : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0
    ∧ win1_5.index t (0 : Fin 3) = 0 ∧ win1_5.index t (1 : Fin 3) = t.val ∧ win1_5.index t (2 : Fin 3) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0 :=
  (by decide +kernel : ∀ t : Fin grid1.N, _)

set_option maxHeartbeats 2000000 in
/-- What grid point t writes back is block t (node rows 400 t … 400 t + 399, all heads) of the mix of the five whole
    arrays: an output entry needs its own node row of the three feature arrays and the attention rows of its head. -/
theorem flushed_eq (c : Dev nD) (t : Fin cfg1.N) :
    (dat1 V c).flushed 5 t = ((cfg1.win 5).blk t).view.read (Elt Ideal)
      (Cert.Attend.attend (H := 8) (n := 50000) (D := 16) (V c main_v44) (V c main_v45) (V c main_v46) (V c main_v47) (V c main_v48)) := by
  show (cfg1.win 5).cut (grid1.coords t) ((dat1 V c).after 5 t) = _
  rw [after1_5]
  unfold out1_5
  rw [View.canon_unit_zero origin3]
  simp only [View.ld_unit_zero (S := S8x400x16) origin3, View.ld_unit_zero (S := S8x1x16) origin3]
  rw [body_value]
  obtain ⟨a00, a01, a02, a10, a11, a12, a20, a21, a22, a50, a51, a52, a30, a31, a32, a40, a41, a42⟩ := block_index t
  funext y
  refine Cert.Attend.attend_congr (H := 8) (n := 400) (n' := 50000) (D := 16) (iblk1 V c 0 t) (iblk1 V c 1 t) (iblk1 V c 2 t) (iblk1 V c 3 t) (iblk1 V c 4 t)
    (V c main_v44) (V c main_v45) (V c main_v46) (V c main_v47) (V c main_v48) y (((cfg1.win 5).blk t).view.emb y) ?_ ?_ ?_ ?_ ?_ ?_
  · show (y 2).val = win1_5.index t (2 : Fin 3) * 16 + 1 * (y 2).val
    omega
  · intro k
    show V c main_v44 (((cfg1.win 0).blk t).view.emb (ix3 (y 0) (y 1) k)) = V c main_v44 (ix3 ((((cfg1.win 5).blk t).view.emb y) 0) ((((cfg1.win 5).blk t).view.emb y) 1) k)
    refine congrArg (V c main_v44) (funext fun a => Fin.ext ?_)
    match a with
    | ⟨0, _⟩ => show win1_0.index t (0 : Fin 3) * 8 + 1 * (y 0).val = win1_5.index t (0 : Fin 3) * 8 + 1 * (y 0).val; omega
    | ⟨1, _⟩ => show win1_0.index t (1 : Fin 3) * 400 + 1 * (y 1).val = win1_5.index t (1 : Fin 3) * 400 + 1 * (y 1).val; omega
    | ⟨2, _⟩ => show win1_0.index t (2 : Fin 3) * 16 + 1 * k.val = k.val; omega
  · intro k
    show V c main_v45 (((cfg1.win 1).blk t).view.emb (ix3 (y 0) (y 1) k)) = V c main_v45 (ix3 ((((cfg1.win 5).blk t).view.emb y) 0) ((((cfg1.win 5).blk t).view.emb y) 1) k)
    refine congrArg (V c main_v45) (funext fun a => Fin.ext ?_)
    match a with
    | ⟨0, _⟩ => show win1_1.index t (0 : Fin 3) * 8 + 1 * (y 0).val = win1_5.index t (0 : Fin 3) * 8 + 1 * (y 0).val; omega
    | ⟨1, _⟩ => show win1_1.index t (1 : Fin 3) * 400 + 1 * (y 1).val = win1_5.index t (1 : Fin 3) * 400 + 1 * (y 1).val; omega
    | ⟨2, _⟩ => show win1_1.index t (2 : Fin 3) * 16 + 1 * k.val = k.val; omega
  · intro k
    show V c main_v46 (((cfg1.win 2).blk t).view.emb (ix3 (y 0) (y 1) k)) = V c main_v46 (ix3 ((((cfg1.win 5).blk t).view.emb y) 0) ((((cfg1.win 5).blk t).view.emb y) 1) k)
    refine congrArg (V c main_v46) (funext fun a => Fin.ext ?_)
    match a with
    | ⟨0, _⟩ => show win1_2.index t (0 : Fin 3) * 8 + 1 * (y 0).val = win1_5.index t (0 : Fin 3) * 8 + 1 * (y 0).val; omega
    | ⟨1, _⟩ => show win1_2.index t (1 : Fin 3) * 400 + 1 * (y 1).val = win1_5.index t (1 : Fin 3) * 400 + 1 * (y 1).val; omega
    | ⟨2, _⟩ => show win1_2.index t (2 : Fin 3) * 16 + 1 * k.val = k.val; omega
  · intro k
    show V c main_v47 (((cfg1.win 3).blk t).view.emb (ix3 (y 0) (0 : Fin 1) k)) = V c main_v47 (ix3 ((((cfg1.win 5).blk t).view.emb y) 0) (0 : Fin 1) k)
    refine congrArg (V c main_v47) (funext fun a => Fin.ext ?_)
    match a with
    | ⟨0, _⟩ => show win1_3.index t (0 : Fin 3) * 8 + 1 * (y 0).val = win1_5.index t (0 : Fin 3) * 8 + 1 * (y 0).val; omega
    | ⟨1, _⟩ => show win1_3.index t (1 : Fin 3) * 1 + 1 * 0 = 0; omega
    | ⟨2, _⟩ => show win1_3.index t (2 : Fin 3) * 16 + 1 * k.val = k.val; omega
  · intro k
    show V c main_v48 (((cfg1.win 4).blk t).view.emb (ix3 (y 0) (0 : Fin 1) k)) = V c main_v48 (ix3 ((((cfg1.win 5).blk t).view.emb y) 0) (0 : Fin 1) k)
    refine congrArg (V c main_v48) (funext fun a => Fin.ext ?_)
    match a with
    | ⟨0, _⟩ => show win1_4.index t (0 : Fin 3) * 8 + 1 * (y 0).val = win1_5.index t (0 : Fin 3) * 8 + 1 * (y 0).val; omega
    | ⟨1, _⟩ => show win1_4.index t (1 : Fin 3) * 1 + 1 * 0 = 0; omega
    | ⟨2, _⟩ => show win1_4.index t (2 : Fin 3) * 16 + 1 * k.val = k.val; omega

/-- An index of the output array is in point t's block iff each coordinate is in the block's range on its axis. -/
theorem mem_block (t : Fin cfg1.N) (i : S8x50000x16.Idx) :
    i ∈ ((cfg1.win 5).blk t).view.set ↔ ∀ a : Fin 3, win1_5.index t a * S8x400x16.size a ≤ (i a).val ∧ (i a).val < win1_5.index t a * S8x400x16.size a + S8x400x16.size a := by
  show i ∈ ((View.whole main_v49).slice (win1_5.rect t)).set ↔ _
  rw [View.set_slice_whole, Rect.mem_set_unit]
  exact Iff.rfl

/-- Node row q of the output is written by grid point q / 400: the 125 blocks tile the array. -/
theorem covered (i : S8x50000x16.Idx) :
    ∃ t : Fin cfg1.N, (cfg1.win 5).flush t = true ∧ i ∈ ((cfg1.win 5).blk t).view.set := by
  have hi0 : (i 0).val < 8 := (i 0).isLt
  have hi1 : (i 1).val < 50000 := (i 1).isLt
  have hi2 : (i 2).val < 16 := (i 2).isLt
  let t : Fin cfg1.N := ⟨(i 1).val / 400, by show (i 1).val / 400 < 125; omega⟩
  obtain ⟨a00, a01, a02, a10, a11, a12, a20, a21, a22, a50, a51, a52, a30, a31, a32, a40, a41, a42⟩ := block_index t
  have ht : t.val = (i 1).val / 400 := rfl
  refine ⟨t, flush1_5 t, ?_⟩
  rw [mem_block]
  intro a
  match a with
  | ⟨0, _⟩ => show win1_5.index t (0 : Fin 3) * 8 ≤ (i 0).val ∧ (i 0).val < win1_5.index t (0 : Fin 3) * 8 + 8; omega
  | ⟨1, _⟩ => show win1_5.index t (1 : Fin 3) * 400 ≤ (i 1).val ∧ (i 1).val < win1_5.index t (1 : Fin 3) * 400 + 400; omega
  | ⟨2, _⟩ => show win1_5.index t (2 : Fin 3) * 16 ≤ (i 2).val ∧ (i 2).val < win1_5.index t (2 : Fin 3) * 16 + 16; omega

/-- The output array after the region: the attention mix of the five arrays as the region found them. -/
theorem final (c : Dev nD) :
    (dat1 V c).arrAt 5 cfg1.N
      = Cert.Attend.attend (H := 8) (n := 50000) (D := 16) (V c main_v44) (V c main_v45) (V c main_v46) (V c main_v47) (V c main_v48) :=
  (dat1 V c).arrAt_eq_of_cover 5 _ (fun t _ => flushed_eq V c t) covered

end Cert.KernelIdeal.AttentionRegion

end
-- ==== Proof.OutputProjection.lean ====
/-
  The third grid region: the output projection.

  The region's ten grid points each load a block of 5000 rows of the mixed features, the whole 128 x 128 weight and the
  bias row, and store the linear layer of those blocks into the matching block of 5000 rows of the result. Read as a
  whole, the result array therefore ends holding the linear layer of the three whole arrays the region was entered
  with: entry (r, g) needs row r of the mixed features only, and row r lies in block r / 5000.
-/
import proofs.«160960_j5360119185954_2_alg».proof.Proof.KernelIdealFrame
import proofs.«160960_j5360119185954_2_alg».proof.Proof.LibAffineLayer

set_option maxRecDepth 16384

noncomputable section

namespace Cert.KernelIdeal.OutputProjection

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

-- the buffer contents when the region is entered: every statement here holds for any such contents
variable (V : (c : Dev nD) → (b : Ref sig .tc) → Buf (Elt Ideal) ((c : Thread nD τ).loc b))

theorem origin2 : (![0, 0] : Fin 2 → Nat) = fun _ => 0 := funext fun a => by fin_cases a <;> rfl

/-- The body's stored value is the layer of its three loaded blocks. -/
theorem body_value (x0 : Vec Ideal S5000x128 .f32) (x1 : Vec Ideal S128x128 .f32) (x2 : Vec Ideal S1x128 .f32) :
    k2_pay1 (F := Ideal) x0 x1 x2 = Cert.Affine.affine (M := 5000) (K := 128) (N := 128) x0 x1 x2 := by
  simp only [k2_pay1, shapeCast_self]
  exact Cert.Affine.body_eq dot_S5000x128_S128x128_S5000x128_1_0_0_1_n_n rfl x0 x1 x2 _ _

/-- The printed index maps over the ten grid points: the row blocks of the input and of the output move together, point
    t at block t; the weight and the bias row are one block, at the origin. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is block t (rows 5000 t … 5000 t + 4999) of the layer of the three whole arrays: an
    output row needs its own input row, the whole weight and the bias row. -/
theorem flushed_eq (c : Dev nD) (t : Fin cfg2.N) :
    (dat2 V c).flushed 3 t = ((cfg2.win 3).blk t).view.read (Elt Ideal)
      (Cert.Affine.affine (M := 50000) (K := 128) (N := 128) (V c main_v50) (V c main_arg11) (V c main_v51)) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S128x128) origin2,
    View.ld_unit_zero (S := S1x128) origin2]
  rw [body_value]
  obtain ⟨e00, e01, e10, e11, e20, e21, e30, e31⟩ := block_index t
  funext y
  refine Cert.Affine.affine_congr (M := 5000) (M' := 50000) (K := 128) (N := 128) (iblk2 V c 0 t) (iblk2 V c 1 t) (iblk2 V c 2 t)
    (V c main_v50) (V c main_arg11) (V c main_v51) y (((cfg2.win 3).blk t).view.emb y) (fun k => ?_) (fun k => ?_) ?_
  · show V c main_v50 (((cfg2.win 0).blk t).view.emb (ix2 (y 0) k)) = V c main_v50 (ix2 ((((cfg2.win 3).blk t).view.emb y) 0) k)
    refine congrArg (V c main_v50) (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega
  · show V c main_arg11 (((cfg2.win 1).blk t).view.emb (ix2 k (y 1))) = V c main_arg11 (ix2 k ((((cfg2.win 3).blk t).view.emb y) 1))
    refine congrArg (V c main_arg11) (funext fun a => Fin.ext ?_)
    match a with
    | ⟨0, _⟩ => show win2_1.index t (0 : Fin 2) * 128 + 1 * k.val = k.val; omega
    | ⟨1, _⟩ => show win2_1.index t (1 : Fin 2) * 128 + 1 * (y 1).val = win2_3.index t (1 : Fin 2) * 128 + 1 * (y 1).val; omega
  · show V c main_v51 (((cfg2.win 2).blk t).view.emb (ix2 (0 : Fin 1) (y 1))) = V c main_v51 (ix2 (0 : Fin 1) ((((cfg2.win 3).blk t).view.emb y) 1))
    refine congrArg (V c main_v51) (funext fun a => Fin.ext ?_)
    match a with
    | ⟨0, _⟩ => show win2_2.index t (0 : Fin 2) * 1 + 1 * 0 = 0; omega
    | ⟨1, _⟩ => show win2_2.index t (1 : Fin 2) * 128 + 1 * (y 1).val = win2_3.index t (1 : Fin 2) * 128 + 1 * (y 1).val; omega

/-- An index of the output array is in point t's block iff each coordinate is in the block's range on its axis. -/
theorem mem_block (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v52).slice (win2_3.rect t)).set ↔ _
  rw [View.set_slice_whole, Rect.mem_set_unit]
  exact Iff.rfl

/-- Row r of the output is written by grid point r / 5000: the ten row blocks tile the array. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, by show (i 0).val / 5000 < 10; omega⟩
  obtain ⟨e00, e01, e10, e11, e20, e21, e30, e31⟩ := block_index t
  have ht : t.val = (i 0).val / 5000 := rfl
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region: the layer of the three arrays as the region found them. -/
theorem final (c : Dev nD) :
    (dat2 V c).arrAt 3 cfg2.N
      = Cert.Affine.affine (M := 50000) (K := 128) (N := 128) (V c main_v50) (V c main_arg11) (V c main_v51) :=
  (dat2 V c).arrAt_eq_of_cover 3 _ (fun t _ => flushed_eq V c t) covered

end Cert.KernelIdeal.OutputProjection

end
-- ==== Proof.ReferenceStages.lean ====
/-
  The reference program's stages as the two layers and the attention mix.

  The reference computes, one host operation at a time: the input projection (a dot_general plus the bias spread over
  the rows), two neighbourhood aggregations of it, the per-head views of the three arrays, three per-head scores
  (batched dot_general against the attention vectors), the clipped exponentials of the leaky scores, the normalised
  mix, and the output projection. Here the input projection and the output projection are read as the linear layer, and
  the stretch from the per-head views to the mixed features as the attention mix, each index by index. The scores are
  sums of products on both sides; every later step is the same operation applied to the same operands.
-/
import proofs.«160960_j5360119185954_2_alg».proof.Proof.Gen.ReferenceIdeal.Read
import proofs.«160960_j5360119185954_2_alg».proof.Proof.LibAffineLayer
import proofs.«160960_j5360119185954_2_alg».proof.Proof.Attend

noncomputable section

namespace Cert.ReferenceIdeal.Stages

open Cert.ReferenceIdeal Cert.ReferenceIdeal.Read
open Idealize.ShloMosaic Idealize.ShloMosaic.TcCoe Idealize.ShloMosaic.ValueIdx

/-- The input projection is the linear layer of the features, the weight and the bias viewed as one row. -/
theorem hidden_eq (x0 : FVec Ideal S50000x128 .f32) (x7 : FVec Ideal S128x128 .f32) (x8 : FVec Ideal S128 .f32)
    (h1 : S128.ShapeCasts S1x128) :
    val_main_v3 (F := Ideal) x0 x7 x8 = Cert.Affine.affine (M := 50000) (K := 128) (N := 128) x0 x7 (shapeCast S1x128 x8 h1) := by
  unfold val_main_v3 val_main_v0 val_main_v2 val_main_v1
  exact Cert.Affine.host_eq dot_S50000x128_S128x128_S50000x128_1_0_0_1_n_n rfl x0 x7 x8 h1 _ _

/-- The output projection is the linear layer of the mixed features, the weight and the bias viewed as one row. -/
theorem result_eq (x0 : FVec Ideal S50000x128 .f32) (x1 x2 x3 x4 : IVec S800000 32) (x5 x6 : FVec Ideal S50000x1 .f32)
    (x7 : FVec Ideal S128x128 .f32) (x8 : FVec Ideal S128 .f32) (x9 x10 : FVec Ideal S8x16x1 .f32)
    (x11 : FVec Ideal S128x128 .f32) (x12 : FVec Ideal S128 .f32) (h1 : S128.ShapeCasts S1x128) :
    val_main_v80 (F := Ideal) x0 x1 x2 x3 x4 x5 x6 x7 x8 x9 x10 x11 x12
      = Cert.Affine.affine (M := 50000) (K := 128) (N := 128) (val_main_v76 (F := Ideal) x0 x1 x2 x3 x4 x5 x6 x7 x8 x9 x10) x11 (shapeCast S1x128 x12 h1) := by
  unfold val_main_v80 val_main_v77 val_main_v79 val_main_v78
  exact Cert.Affine.host_eq dot_S50000x128_S128x128_S50000x128_1_0_0_1_n_n rfl _ x11 x12 h1 _ _

/-! ## The indices the stages read at -/

theorem bcast_idx (h : Fin 8) (q : Fin 50000) (d : Fin 16) :
    idx_main_v70 (ix3 h q d) = ix3 h q (0 : Fin 1) := funext fun a => Fin.ext (by
  match a with | ⟨0, _⟩ => rfl | ⟨1, _⟩ => rfl | ⟨2, _⟩ => rfl)
theorem bcast_idx' (h : Fin 8) (q : Fin 50000) (d : Fin 16) :
    idx_main_v73 (ix3 h q d) = ix3 h q (0 : Fin 1) := funext fun a => Fin.ext (by
  match a with | ⟨0, _⟩ => rfl | ⟨1, _⟩ => rfl | ⟨2, _⟩ => rfl)
theorem lhs_idx (h : Fin 8) (q : Fin 50000) (k : Fin 16) :
    lidx_main_v49 (ix3 h q (0 : Fin 1)) k = ix3 h q k := funext fun a => Fin.ext (by
  match a with | ⟨0, _⟩ => rfl | ⟨1, _⟩ => rfl | ⟨2, _⟩ => rfl)
theorem rhs_idx (h : Fin 8) (q : Fin 50000) (k : Fin 16) :
    ridx_main_v49 (ix3 h q (0 : Fin 1)) k = ix3 h k (0 : Fin 1) := funext fun a => Fin.ext (by
  match a with | ⟨0, _⟩ => rfl | ⟨1, _⟩ => rfl | ⟨2, _⟩ => rfl)
theorem lhs_idx1 (h : Fin 8) (q : Fin 50000) (k : Fin 16) :
    lidx_main_v50 (ix3 h q (0 : Fin 1)) k = ix3 h q k := funext fun a => Fin.ext (by
  match a with | ⟨0, _⟩ => rfl | ⟨1, _⟩ => rfl | ⟨2, _⟩ => rfl)
theorem rhs_idx1 (h : Fin 8) (q : Fin 50000) (k : Fin 16) :
    ridx_main_v50 (ix3 h q (0 : Fin 1)) k = ix3 h k (0 : Fin 1) := funext fun a => Fin.ext (by
  match a with | ⟨0, _⟩ => rfl | ⟨1, _⟩ => rfl | ⟨2, _⟩ => rfl)
theorem lhs_idx2 (h : Fin 8) (q : Fin 50000) (k : Fin 16) :
    lidx_main_v51 (ix3 h q (0 : Fin 1)) k = ix3 h q k := funext fun a => Fin.ext (by
  match a with | ⟨0, _⟩ => rfl | ⟨1, _⟩ => rfl | ⟨2, _⟩ => rfl)
theorem rhs_idx2 (h : Fin 8) (q : Fin 50000) (k : Fin 16) :
    ridx_main_v51 (ix3 h q (0 : Fin 1)) k = ix3 h k (0 : Fin 1) := funext fun a => Fin.ext (by
  match a with | ⟨0, _⟩ => rfl | ⟨1, _⟩ => rfl | ⟨2, _⟩ => rfl)

/-- The mixed features are the attention mix of the three per-head views and the two attention vectors viewed as rows. -/
theorem mixed_eq (x0 : FVec Ideal S50000x128 .f32) (x1 x2 x3 x4 : IVec S800000 32) (x5 x6 : FVec Ideal S50000x1 .f32)
    (x7 : FVec Ideal S128x128 .f32) (x8 : FVec Ideal S128 .f32) (x9 x10 : FVec Ideal S8x16x1 .f32)
    (hc : S8x16x1.ShapeCasts (⟨3, ![8, 1, 16]⟩ : Shape)) :
    val_main_v75 (F := Ideal) x0 x1 x2 x3 x4 x5 x6 x7 x8 x9 x10
      = Cert.Attend.attend (H := 8) (n := 50000) (D := 16) (val_main_v48 (F := Ideal) x0 x7 x8)
          (val_main_v46 (F := Ideal) x0 x1 x2 x5 x7 x8) (val_main_v47 (F := Ideal) x0 x3 x4 x6 x7 x8)
          (shapeCast (⟨3, ![8, 1, 16]⟩ : Shape) x9 hc) (shapeCast (⟨3, ![8, 1, 16]⟩ : Shape) x10 hc) := by
  funext j
  obtain ⟨h, q, d, rfl⟩ : ∃ (h : Fin 8) (q : Fin 50000) (d : Fin 16), j = ix3 h q d := ⟨j 0, j 1, j 2, eq_ix3 j⟩
  rw [Cert.Attend.attend_apply]
  simp only [val_main_v75_apply, val_main_v71_apply, val_main_v74_apply, val_main_v70_apply, val_main_v73_apply,
    val_main_v69_apply, val_main_v72_apply, val_main_v68_apply, val_main_v59_apply, val_main_v67_apply,
    val_main_call1_v2_apply, val_main_call3_v2_apply, val_main_call1_v4_apply, val_main_call3_v4_apply,
    val_main_call1_v3_apply, val_main_call3_v3_apply, val_main_call1_v1_apply, val_main_call3_v1_apply,
    val_main_call1_v0_apply, val_main_call3_v0_apply, val_main_cst_10_apply, val_main_cst_11_apply,
    val_main_cst_14_apply, val_main_cst_15_apply, val_main_v58_apply, val_main_v66_apply, val_main_v57_apply,
    val_main_v65_apply, val_main_v54_apply, val_main_v62_apply, val_main_v56_apply, val_main_v64_apply,
    val_main_v53_apply, val_main_v61_apply, val_main_v55_apply, val_main_v63_apply, val_main_cst_8_apply,
    val_main_cst_9_apply, val_main_cst_12_apply, val_main_cst_13_apply, val_main_v52_apply, val_main_v60_apply,
    val_main_v49_apply, val_main_v50_apply, val_main_v51_apply, bcast_idx, bcast_idx', lhs_idx, rhs_idx, lhs_idx1, rhs_idx1,
    lhs_idx2, rhs_idx2, Cert.Attend.column_as_row]
  rfl

end Cert.ReferenceIdeal.Stages

end
-- ==== Proof.Boundaries.lean ====
/-
  The idealized kernel program's arrays at the boundaries between its host stretches and its grid regions.

  The program's run folds, from the launch memory: one host reshape (the first bias as a row); the input projection
  region; a host stretch (two neighbourhood aggregations of the projected features — gather, scale, scatter-add, scale
  —, the per-head views of the three arrays, the two attention vectors as rows); the attention region; a host stretch
  (the mixed features back as a matrix, the second bias as a row); the output projection region. Each region leaves in
  its output array one whole-array function of the arrays it was entered with (the linear layer, the attention mix),
  and each host stretch applies to those arrays exactly the host operations the reference applies. So every boundary
  array is the reference's stage of the same name applied to the launch arrays, and the result array is the
  reference's result.
-/
import proofs.«160960_j5360119185954_2_alg».proof.Proof.RunValue
import proofs.«160960_j5360119185954_2_alg».proof.Proof.InputProjection
import proofs.«160960_j5360119185954_2_alg».proof.Proof.AttentionRegion
import proofs.«160960_j5360119185954_2_alg».proof.Proof.OutputProjection
import proofs.«160960_j5360119185954_2_alg».proof.Proof.ReferenceStages

set_option maxRecDepth 16384

noncomputable section

namespace Cert.KernelIdeal.Boundaries

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The argument arrays at the boundaries: nothing writes them -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W1_arg12 (c : Dev nD) : W1 m ρ c (Proc.devRef .tc main_arg12) = m ((c : Thread nD τ).loc main_arg12) := by
  show StableHlo.after hostOps0 (W0 m ρ c) (Proc.devRef .tc main_arg12) = _
  after_results
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c
theorem W4_arg11 (c : Dev nD) : W4 m ρ c (Proc.devRef .tc main_arg11) = m ((c : Thread nD τ).loc main_arg11) :=
  (W4_of_ne m ρ c main_arg11 (by decide)).trans (W3_arg11 m ρ c)
theorem W3_arg12 (c : Dev nD) : W3 m ρ c (Proc.devRef .tc main_arg12) = m ((c : Thread nD τ).loc main_arg12) := by
  show StableHlo.after hostOps1 (W2 m ρ c) (Proc.devRef .tc main_arg12) = _
  after_results_simp
  exact W2_arg12 m ρ c
theorem W4_arg12 (c : Dev nD) : W4 m ρ c (Proc.devRef .tc main_arg12) = m ((c : Thread nD τ).loc main_arg12) :=
  (W4_of_ne m ρ c main_arg12 (by decide)).trans (W3_arg12 m ρ c)

/-! ## Region 0: the projected features -/

/-- The first bias, set as a row by the host before the region. -/
theorem bias_row0 (c : Dev nD) :
    V1 m ρ c main_v0 = shapeCast S1x128 (m ((c : Thread nD τ).loc main_arg8)) shapeCasts_S128_S1x128 := by
  show StableHlo.after hostOps0 (W0 m ρ c) (Proc.devRef .tc main_v0) = _
  after_results
  rfl

/-- After the first region its output array holds the reference's projected features of the launch arrays. -/
theorem hidden (c : Dev nD) :
    W2 m ρ c (Proc.devRef .tc main_v1) = Cert.ReferenceIdeal.Read.val_main_v3 (F := Ideal) (m ((c : Thread nD τ).loc main_arg0)) (m ((c : Thread nD τ).loc main_arg7)) (m ((c : Thread nD τ).loc main_arg8)) := by
  refine (W2_arr m ρ c 3).trans ((InputProjection.final (V1 m ρ) c).trans ?_)
  rw [show V1 m ρ c main_arg0 = (m ((c : Thread nD τ).loc main_arg0)) from W1_arg0 m ρ c, show V1 m ρ c main_arg7 = (m ((c : Thread nD τ).loc main_arg7)) from W1_arg7 m ρ c, bias_row0]
  exact (Cert.ReferenceIdeal.Stages.hidden_eq _ _ _ _).symm

/-! ## The host stretch between the first two regions: the aggregations and the per-head views -/

/-- The projected features viewed per head. -/
theorem own_view (c : Dev nD) :
    V3 m ρ c main_v44 = Cert.ReferenceIdeal.Read.val_main_v48 (F := Ideal) (m ((c : Thread nD τ).loc main_arg0)) (m ((c : Thread nD τ).loc main_arg7)) (m ((c : Thread nD τ).loc main_arg8)) := by
  show StableHlo.after hostOps1 (W2 m ρ c) (Proc.devRef .tc main_v44) = _
  after_results_simp
  rw [hidden]
  rfl

/-- The first neighbourhood aggregation viewed per head. -/
theorem agg1_view (c : Dev nD) :
    V3 m ρ c main_v45 = Cert.ReferenceIdeal.Read.val_main_v46 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg8)) := by
  show StableHlo.after hostOps1 (W2 m ρ c) (Proc.devRef .tc main_v45) = _
  after_results_simp
  rw [hidden, W2_arg1, W2_arg2, W2_arg5]
  rfl

/-- The second neighbourhood aggregation viewed per head. -/
theorem agg2_view (c : Dev nD) :
    V3 m ρ c main_v46 = Cert.ReferenceIdeal.Read.val_main_v47 (F := Ideal) (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) := by
  show StableHlo.after hostOps1 (W2 m ρ c) (Proc.devRef .tc main_v46) = _
  after_results_simp
  rw [hidden, W2_arg3, W2_arg4, W2_arg6]
  rfl

/-- The two attention vectors, each viewed as one row per head. -/
theorem al_row (c : Dev nD) :
    V3 m ρ c main_v47 = shapeCast S8x1x16 (m ((c : Thread nD τ).loc main_arg9)) shapeCasts_S8x16x1_S8x1x16 := by
  show StableHlo.after hostOps1 (W2 m ρ c) (Proc.devRef .tc main_v47) = _
  after_results_simp
  rw [W2_arg9]
  rfl
theorem ar_row (c : Dev nD) :
    V3 m ρ c main_v48 = shapeCast S8x1x16 (m ((c : Thread nD τ).loc main_arg10)) shapeCasts_S8x16x1_S8x1x16 := by
  show StableHlo.after hostOps1 (W2 m ρ c) (Proc.devRef .tc main_v48) = _
  after_results_simp
  rw [W2_arg10]
  rfl

/-! ## Region 1: the mixed features -/

/-- After the second region its output array holds the reference's mixed features of the launch arrays. -/
theorem mixed (c : Dev nD) :
    W4 m ρ c (Proc.devRef .tc main_v49) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((AttentionRegion.final (V3 m ρ) c).trans ?_)
  rw [own_view, agg1_view, agg2_view, al_row, ar_row]
  exact (Cert.ReferenceIdeal.Stages.mixed_eq _ _ _ _ _ _ _ _ _ _ _ _).symm

/-! ## The host stretch before the last region -/

/-- The mixed features back as a matrix. -/
theorem mixed_matrix (c : Dev nD) :
    V5 m ρ c main_v50 = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v50) = _
  after_results
  rw [mixed]
  rfl

/-- The second bias, set as a row by the host. -/
theorem bias_row2 (c : Dev nD) :
    V5 m ρ c main_v51 = shapeCast S1x128 (m ((c : Thread nD τ).loc main_arg12)) shapeCasts_S128_S1x128 := by
  show StableHlo.after hostOps2 (W4 m ρ c) (Proc.devRef .tc main_v51) = _
  after_results
  rw [W4_arg12]
  rfl

/-- The second weight reaches the last region as launched. -/
theorem weight2 (c : Dev nD) : V5 m ρ c main_arg11 = (m ((c : Thread nD τ).loc main_arg11)) := by
  show StableHlo.after hostOps2 (W4 m ρ c) (Proc.devRef .tc main_arg11) = _
  after_results
  exact W4_arg11 m ρ c

/-! ## Region 2: the result -/

/-- The result array ends holding the reference's result of the launch arrays. -/
theorem result (c : Dev nD) :
    W6 m ρ c (Proc.devRef .tc main_v52) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 3).trans ((OutputProjection.final (V5 m ρ) c).trans ?_)
  rw [mixed_matrix, weight2, bias_row2]
  exact (Cert.ReferenceIdeal.Stages.result_eq _ _ _ _ _ _ _ _ _ _ _ _ _ _).symm

end Cert.KernelIdeal.Boundaries

end
-- ==== Proof.lean ====
/-
  The certificate of a two-neighbourhood graph attention layer: a kernel program of three grid regions — a row-blocked
  input projection, a node-blocked attention mix over eight heads, a row-blocked output projection — among host
  stretches (two gather / scatter-add neighbourhood aggregations and the per-head views), against a reference written
  with whole-array host operations.

  Over the extended reals the two programs compute one function of the thirteen argument arrays:
    hf  = h · W_lin + b_lin;
    h_i = (segment sum over the edges into each node of hf[src_i] · norm_i[src_i]) · norm_i,      i = 1, 2;
    per head and node, with the three arrays viewed as [8, N, 16]:
      s0 = <hf, al>, s_i = <h_i, ar>, w_i = min 10 (max (-10) (exp (leaky (s0 + s_i)))),
      out = w_1 / (w_1 + w_2) · h_1 + w_2 / (w_1 + w_2) · h_2;
    result = out (viewed as [N, 128]) · W_fc + b_fc.
  The kernel narrows the factors of its two matrix products to a shorter float format (the identity on the extended
  reals), multiplies block by block into zero accumulators and takes the scores as lane sums of elementwise products;
  the reference uses dot_general throughout. These are the same finite sums of the same products, the aggregations
  are the same host operations on both sides, and every other step is the same operation on the same operands: no
  algebraic law beyond the reading of a contraction as a sum is used, so the finiteness of the inputs is never opened.

  The modules: LibAffineLayer and Attend state the linear layer and the attention mix as whole-array functions and read both
  programs' forms of them; InputProjection, AttentionRegion and OutputProjection show that each region leaves in its
  output array that function of the arrays it was entered with (a block of the output needs the matching blocks of the
  operands, and the blocks tile the array); ReferenceStages reads the reference's stages the same way; Boundaries
  follows the kernel program's arrays from the launch memory through the host stretches and the regions to the result.
-/
import proofs.«160960_j5360119185954_2_alg».proof.Defs
import proofs.«160960_j5360119185954_2_alg».proof.Proof.Gen.Kernel
import proofs.«160960_j5360119185954_2_alg».proof.Proof.Gen.KernelIdeal
import proofs.«160960_j5360119185954_2_alg».proof.Proof.Gen.ReferenceIdeal
import proofs.«160960_j5360119185954_2_alg».proof.Proof.Gen.Pre_finite_inputs
import proofs.«160960_j5360119185954_2_alg».proof.Proof.Gen.ReferenceIdeal.Run
import proofs.«160960_j5360119185954_2_alg».proof.Proof.Gen.ReferenceIdeal.Read
import proofs.«160960_j5360119185954_2_alg».proof.Proof.KernelFrame
import proofs.«160960_j5360119185954_2_alg».proof.Proof.KernelIdealFrame
import proofs.«160960_j5360119185954_2_alg».proof.Proof.RunValue
import proofs.«160960_j5360119185954_2_alg».proof.Proof.Boundaries
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.GenP.frame m ρ

/-- The idealized kernel program runs and leaves its arguments as launched. -/
theorem frame_kernel_ideal [Cert.KernelIdeal.Facts] [Cert.Pre_finite_inputs.Facts] : Cert.frame_KernelIdeal :=
  fun m ρ _ => Cert.KernelIdeal.GenP.frame m ρ

/-- The reference runs and leaves its arguments as launched: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the reference's result of those arguments: the
    kernel program's result array by the fold of its boundaries, the reference's by its run. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v80 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    ?_, ?_⟩
  · exact (θ_run Cert.KernelIdeal.defs _ _).mono
      (fun r h c => ⟨(h c).1.trans (Cert.KernelIdeal.Boundaries.result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v80_eq]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
